-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x1024 .f32) (main_arg1 : FVec F S4096x1024 .f32) (main_arg2 : FVec F S4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x1024 : Shape := ⟨2, ![8192, 1024]⟩
abbrev S4096x1024 : Shape := ⟨2, ![4096, 1024]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S4096, .f32⟩
  | .hbm, ⟨3, _⟩ => ⟨S1x4096, .f32⟩
  | .hbm, ⟨4, _⟩ => ⟨S8192x1024, .bf16⟩
  | .hbm, ⟨5, _⟩ => ⟨S4096x1024, .bf16⟩
  | .hbm, ⟨6, _⟩ => ⟨S1x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4096_S1x4096 : S4096.ShapeCasts S1x4096
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1x1024_S1x1024 : S1x1024.ShapeCasts S1x1024
  broadcasts_S1x1024_S1024x1024 : S1x1024.Broadcasts S1024x1024
  reduces_S1024x1024_S1024 : S1024x1024.Reduces [0] S1024
  shapeCasts_S1024_S1x1024 : S1024.ShapeCasts S1x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .bf16 = 32 ∨ (Rect.block (s := S4096x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S4096, .f32⟩
  | .hbm, ⟨26, _⟩ => ⟨S1x4096, .f32⟩
  | .hbm, ⟨27, _⟩ => ⟨S_, .f32⟩
  | .hbm, ⟨28, _⟩ => ⟨S1x4096, .f32⟩
  | .hbm, ⟨29, _⟩ => ⟨S1x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  reducesTo_S8192x4096_S4096_d0 : S8192x4096.ReducesTo [0] S4096
  h_S_ : 0 < S_.numel
  bcast_S_S1x4096 : S_.BroadcastsInDim S1x4096 (![] : Fin 0 → Fin S1x4096.rank)
  dot_S8192x1024_S4096x1024_S8192x4096_1_1_0_0_n_n_wf : DotDims.WF S8192x1024 S4096x1024 S8192x4096 [1] [1] [0] [0] [] []

variable [Facts₀]

def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf

class Facts : Prop extends Facts₀ where

variable [Facts]
-- ==== Proof.LibSumBlocks.lean ====
/-
  A general lemma file (Mathlib only): sums over a range cut into equal consecutive blocks. The sum over all
  indices of `Fin (n * b)` is the sum over the `n` blocks of the sums inside each block of `b` consecutive
  indices, for any commutative additive monoid; with the instances 4096 = 4 × 1024 and 4096 = 16 × 256. Used where a
  contraction or a reduction is computed block by block (a matrix product accumulated over blocks of the contracted
  axis, column sums formed per row block and added up afterwards).
-/
import Mathlib.Algebra.BigOperators.Fin
import Mathlib.Logic.Equiv.Fin.Basic

namespace Cert.SumBlocks

open scoped BigOperators

/-- A sum over `Fin (n * b)` is the sum over `n` consecutive blocks of `b` indices. -/
theorem sum_blocks {M : Type*} [AddCommMonoid M] (n b : ℕ) (f : Fin (n * b) → M) :
    ∑ u, f u = ∑ k : Fin n, ∑ r : Fin b, f ⟨b * k.val + r.val, by
      have hk := k.isLt; have hr := r.isLt
      have h1 : b * k.val + r.val < b * (k.val + 1) := by rw [Nat.mul_succ]; omega
      have h2 : b * (k.val + 1) ≤ b * n := Nat.mul_le_mul_left b hk
      rw [Nat.mul_comm n b]; exact lt_of_lt_of_le h1 h2⟩ := by
  rw [← Equiv.sum_comp (finProdFinEquiv (m := n) (n := b)) f, Fintype.sum_prod_type]
  refine Finset.sum_congr rfl fun k _ => Finset.sum_congr rfl fun r _ => congrArg f (Fin.ext ?_)
  simp [finProdFinEquiv, Nat.add_comm]

/-- 4096 indices as 4 blocks of 1024. -/
theorem sum_4x1024 {M : Type*} [AddCommMonoid M] (f : Fin 4096 → M) :
    ∑ u, f u = ∑ k : Fin 4, ∑ r : Fin 1024, f ⟨1024 * k.val + r.val, by have := k.isLt; have := r.isLt; omega⟩ :=
  sum_blocks 4 1024 f

/-- 4096 indices as 16 blocks of 256. -/
theorem sum_16x256 {M : Type*} [AddCommMonoid M] (f : Fin 4096 → M) :
    ∑ u, f u = ∑ k : Fin 16, ∑ r : Fin 256, f ⟨256 * k.val + r.val, by have := k.isLt; have := r.isLt; omega⟩ :=
  sum_blocks 16 256 f

end Cert.SumBlocks
-- ==== Proof.Spec.lean ====
/-
  The function both programs compute, on the extended reals. For a data matrix `x` (8192 rows of 1024 entries), a
  weight matrix `w` (4096 rows of 1024 entries) and a bias vector `b` (4096 entries), neuron `n` sees row `t` as
  the inner product of the two rows plus its bias (`lin`), passes it through the tanh form of the GELU activation
  (`act`), and the result at `n` is the mean over the 8192 rows: the column sum (`colSum`) times 1/8192 (`mean`).

  Two facts join the two programs' arrangements of this one function. The mean is a product with the float 2^-13 on
  one side and a quotient by the float 8192 on the other: both patterns are exact, and on every extended real a
  quotient by a nonzero real is the product with its inverse (`div_count`). The column sum is taken in eight
  consecutive blocks of 1024 rows on one side and in one sweep on the other: addition of extended reals is commutative
  and associative, infinities included, so the blocks add up to the whole (`sum_rows_blocks`). Neither fact needs the
  entries to be finite.
-/
import Idealize.ShloMosaic.PureOps.Ideal
import Idealize.ShloMosaic.Lib.ValueIdx
import proofs.«161075_j4758823764049_2_alg».proof.Proof.LibSumBlocks

noncomputable section

namespace Cert.MeanAct

open Idealize.ShloMosaic Idealize.ShloMosaic.ValueIdx
open scoped BigOperators

/-- What neuron `n` sees of row `t`: the inner product of the data row and the weight row, plus the bias. -/
def lin (x : (⟨2, ![8192, 1024]⟩ : Shape).Idx → EReal) (w : (⟨2, ![4096, 1024]⟩ : Shape).Idx → EReal)
    (b : (⟨1, ![4096]⟩ : Shape).Idx → EReal) (t : Fin 8192) (n : Fin 4096) : EReal :=
  (∑ d : Fin 1024, x (ix2 t d) * w (ix2 n d)) + b (ix1 n)

/-- The tanh form of GELU, `s · (1/2 · (1 + tanh (c₁ · (s + c₀ · s³))))`, the four constants as the float patterns both
    programs spell (the same words on both sides, so their values never matter). -/
def act (s : EReal) : EReal :=
  s * (Ideal.ofBits .f32 0x3F000000#32 * (Ideal.ofBits .f32 0x3F800000#32
    + Ideal.tanh (Ideal.ofBits .f32 0x3F4C422A#32 * (s + Ideal.ofBits .f32 0x3D372713#32 * (s * (s * s))))))

/-- The cube taken as `(s · s) · s` instead of `s · (s · s)` gives the same activation: multiplication of extended
    reals is commutative. -/
theorem act_cube_left (s : EReal) :
    s * (Ideal.ofBits .f32 0x3F000000#32 * (Ideal.ofBits .f32 0x3F800000#32
      + Ideal.tanh (Ideal.ofBits .f32 0x3F4C422A#32 * (s + Ideal.ofBits .f32 0x3D372713#32 * ((s * s) * s))))) = act s := by
  unfold act; rw [mul_comm (s * s) s]

/-- The sum over all 8192 rows of neuron `n`'s activations. -/
def colSum (x : (⟨2, ![8192, 1024]⟩ : Shape).Idx → EReal) (w : (⟨2, ![4096, 1024]⟩ : Shape).Idx → EReal)
    (b : (⟨1, ![4096]⟩ : Shape).Idx → EReal) (n : Fin 4096) : EReal :=
  ∑ t : Fin 8192, act (lin x w b t n)

/-- The result array, a row of 4096 entries: at `n` the column sum (started from zero) times the float 2^-13. -/
def mean (x : (⟨2, ![8192, 1024]⟩ : Shape).Idx → EReal) (w : (⟨2, ![4096, 1024]⟩ : Shape).Idx → EReal)
    (b : (⟨1, ![4096]⟩ : Shape).Idx → EReal) : (⟨2, ![1, 4096]⟩ : Shape).Idx → EReal :=
  fun i => (0 + colSum x w b (i 1)) * Ideal.ofBits .f32 0x39000000#32

/-- The float pattern `0x39000000` is exactly 2^-13 = 1/8192. -/
theorem scale_word : Ideal.ofBits .f32 0x39000000#32 = ((1 / 8192 : ℝ) : EReal) := by
  simp [Ideal.ofBits, Ideal.ieee, -EReal.coe_mul]; norm_num

/-- The float pattern `0x46000000` is exactly 2^13 = 8192. -/
theorem count_word : Ideal.ofBits .f32 0x46000000#32 = ((8192 : ℝ) : EReal) := by
  simp [Ideal.ofBits, Ideal.ieee, -EReal.coe_mul]; norm_num

/-- The float zero is the extended real zero. -/
theorem zero_word : Ideal.ofBits .f32 0x00000000#32 = 0 := by
  simp [Ideal.ofBits, Ideal.ieee]

/-- Dividing by the float 8192 is multiplying by the float 2^-13, on every extended real. -/
theorem div_count (y : EReal) :
    Ideal.div y (Ideal.ofBits .f32 0x46000000#32) = y * Ideal.ofBits .f32 0x39000000#32 := by
  rw [count_word, scale_word, Ideal.div_coe (by norm_num : (8192 : ℝ) ≠ 0)]

/-- Rows in blocks: a sum over the 8192 rows is the sum over eight consecutive blocks of the sums over the 1024 rows
    of each block, in any commutative additive monoid. -/
theorem sum_rows_blocks {M : Type*} [AddCommMonoid M] (f : Fin 8192 → M) :
    ∑ t, f t = ∑ s : Fin 8, ∑ k : Fin 1024, f ⟨1024 * s.val + k.val, by have := s.isLt; have := k.isLt; omega⟩ :=
  Cert.SumBlocks.sum_blocks 8 1024 f

end Cert.MeanAct

end
-- ==== Proof.RefValue.lean ====
/-
  The reference program computes `mean`. Read one operation at a time at an index, its result at column `n` is the
  quotient by 8192 of zero plus the sum over all 8192 rows `t` of the activation of `∑ d, x[t,d] · w[n,d] + b[n]`,
  the cube inside the activation taken as `(s · s) · s`. The quotient is the product with 2^-13 and the cube's order
  does not matter, so this is `mean` entry by entry.
-/
import proofs.«161075_j4758823764049_2_alg».proof.Proof.Gen.ReferenceIdeal.Read
import proofs.«161075_j4758823764049_2_alg».proof.Proof.Spec

noncomputable section

namespace Cert.ReferenceIdeal.RefValue

open Cert.ReferenceIdeal Cert.ReferenceIdeal.Gen Cert.ReferenceIdeal.Read Cert.MeanAct
open Idealize.ShloMosaic Idealize.ShloMosaic.ValueIdx
open scoped BigOperators

variable (x0 : S8192x1024.Idx → EReal) (x1 : S4096x1024.Idx → EReal) (x2 : S4096.Idx → EReal)

/-- The sum before the activation, at row `j 0` and column `j 1`: the inner product of the two rows plus the bias. -/
theorem preact_apply (j : S8192x4096.Idx) :
    val_main_v3 (F := Ideal) x0 x1 x2 j = lin x0 x1 x2 (j 0) (j 1) := by
  have el : ∀ k : Fin 1024, lidx_main_v0 j k = ix2 (j 0) k := fun k =>
    funext fun a => Fin.ext (by match a with | ⟨0, _⟩ => rfl | ⟨1, _⟩ => rfl)
  have er : ∀ k : Fin 1024, ridx_main_v0 j k = ix2 (j 1) k := fun k =>
    funext fun a => Fin.ext (by match a with | ⟨0, _⟩ => rfl | ⟨1, _⟩ => rfl)
  have eb : idx_main_v1 (idx_main_v2 j) = ix1 (j 1) :=
    funext fun a => Fin.ext (by match a with | ⟨0, _⟩ => rfl)
  rw [val_main_v3_apply, val_main_v0_apply, val_main_v2_apply, val_main_v1_apply, eb]
  unfold lin
  simp only [el, er, Ideal.addf_def]
  rfl

/-- The activation of that sum, as the reference spells it, is `act` of it. -/
theorem activation_apply (j : S8192x4096.Idx) :
    val_main_v16 (F := Ideal) x0 x1 x2 j = act (lin x0 x1 x2 (j 0) (j 1)) := by
  simp only [val_main_v16_apply, val_main_v15_apply, val_main_v14_apply, val_main_cst_2_apply, val_main_v13_apply,
    val_main_v12_apply, val_main_cst_1_apply, val_main_v11_apply, val_main_v10_apply, val_main_v9_apply,
    val_main_cst_0_apply, val_main_v8_apply, val_main_v7_apply, val_main_v6_apply, val_main_cst_apply,
    val_main_v5_apply, val_main_v4_apply, preact_apply, Ideal.mulf_def, Ideal.addf_def, Ideal.hostUnary_tanh_def,
    Ideal.ofBits_def]
  exact act_cube_left _

/-- The reference's result is `mean`. -/
theorem result_eq : val_main_v20 (F := Ideal) x0 x1 x2 = mean x0 x1 x2 := by
  funext i
  rw [val_main_v20_apply, val_main_v18_apply, val_main_v17_apply, val_main_v19_apply, val_main_cst_4_apply,
    val_main_cst_3_apply, Ideal.hostDivf_def, Ideal.ofBits_def, Ideal.ofBits_def, div_count, zero_word]
  unfold mean colSum
  refine congrArg (fun z => (0 + z) * _) (Finset.sum_congr rfl fun k _ => ?_)
  rw [activation_apply]
  rfl

end Cert.ReferenceIdeal.RefValue

end
-- ==== Proof.Payload.lean ====
/-
  What the kernel body stores, read at an index. One grid point holds a block of 1024 data rows `x0`, a block of 1024
  weight rows `x1`, the matching 1024 biases `x2` (a row) and the running row of column sums `acc`. Its main store
  writes, at column `r`, the running sum plus the sum over the block's 1024 rows `k` of the activation of
  `∑ d, x0[k,d] · x1[r,d] + x2[r]`: the matrix product into a zero accumulator is the plain sum of products, the bias
  row is spread over the rows, the activation is applied entry by entry, and the reduction over the row axis is the
  sum over `k`. The reset store writes zeros; the closing store multiplies the row by the float 2^-13.
-/
import proofs.«161075_j4758823764049_2_alg».proof.Proof.Gen.KernelIdeal.Skeleton
import proofs.«161075_j4758823764049_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Cert.MeanAct
open Idealize.ShloMosaic Idealize.ShloMosaic.ValueIdx
open scoped BigOperators

/-- A sum over the row axis of a 1024 × 1024 array, at column `r`: the sum over the rows `k` of the entry `(k, r)`. -/
theorem row_axis_sum (src : FVec Ideal S1024x1024 .f32) (h : S1024x1024.Reduces [0] S1024) (hφ : FKind.Formats .f32)
    (hacc : (0x00000000#32 : BitVec 32) = FKind.add.neutral .f32 hφ) (r : Fin 1024) :
    multiReduction .add [0] S1024 src 0x00000000#32 h hφ hacc (ix1 r) = ∑ k : Fin 1024, src (ix2 k r) := by
  refine (Ideal.multiReduction_add_single src 0x00000000#32 h hφ hacc (ix1 r)).trans ?_
  refine Finset.sum_congr rfl fun k _ => congrArg src (funext fun a => Fin.ext ?_)
  match a with
  | ⟨0, _⟩ => rfl
  | ⟨1, _⟩ => rfl

/-- The left operand of the product is read at the output's row. -/
theorem lhs_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- The right operand of the product is read at the row named by the output's column: both operands are contracted
    along their second axis. -/
theorem rhs_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- The product of the two row blocks into a zero accumulator, at `(k, r)`: the inner product of row `k` of the first
    with row `r` of the second. -/
theorem rows_product_apply (x0 x1 : FVec Ideal S1024x1024 .bf16) (k r : Fin 1024) :
    matmul dot_S1024x1024_S1024x1024_S1024x1024_1_1_0_0_n_n none x0 x1 (constant (F := Ideal) S1024x1024 .f32 0x00000000#32) (ix2 k r)
      = ∑ d : Fin 1024, x0 (ix2 k d) * x1 (ix2 r d) := by
  simp only [matmul]
  rw [Ideal.matmul_constant_zero_apply, ← Equiv.sum_comp (contrEquiv1 dot_S1024x1024_S1024x1024_S1024x1024_1_1_0_0_n_n 1024 rfl rfl).symm]
  refine Finset.sum_congr rfl fun d _ => ?_
  have hk := contrEquiv1_symm_val dot_S1024x1024_S1024x1024_S1024x1024_1_1_0_0_n_n 1024 rfl rfl d
  have el : dot_S1024x1024_S1024x1024_S1024x1024_1_1_0_0_n_n.lhsIdx (ix2 k r) ((contrEquiv1 dot_S1024x1024_S1024x1024_S1024x1024_1_1_0_0_n_n 1024 rfl rfl).symm d) = ix2 k d :=
    funext fun a => Fin.ext (by
      match a with
      | ⟨0, _⟩ => exact lhs_row _ _
      | ⟨1, _⟩ => exact (dot_S1024x1024_S1024x1024_S1024x1024_1_1_0_0_n_n.lhsIdx_val_of_single rfl _ _).trans hk)
  have er : dot_S1024x1024_S1024x1024_S1024x1024_1_1_0_0_n_n.rhsIdx (ix2 k r) ((contrEquiv1 dot_S1024x1024_S1024x1024_S1024x1024_1_1_0_0_n_n 1024 rfl rfl).symm d) = ix2 r d :=
    funext fun a => Fin.ext (by
      match a with
      | ⟨0, _⟩ => exact rhs_row _ _
      | ⟨1, _⟩ => exact (dot_S1024x1024_S1024x1024_S1024x1024_1_1_0_0_n_n.rhsIdx_val_of_single rfl _ _).trans hk)
  rw [el, er]

/-- The activation applied entry by entry to an array `p` is `act` of the entry. -/
theorem act_apply (p : FVec Ideal S1024x1024 .f32) (j : S1024x1024.Idx) :
    mulf p (mulf (broadcast S1024x1024 (Scalar.ofBits (F := Ideal) .f32 0x3F000000#32))
      (addf (broadcast S1024x1024 (Scalar.ofBits (F := Ideal) .f32 0x3F800000#32))
        (tanh (mulf (broadcast S1024x1024 (Scalar.ofBits (F := Ideal) .f32 0x3F4C422A#32))
          (addf p (mulf (broadcast S1024x1024 (Scalar.ofBits (F := Ideal) .f32 0x3D372713#32)) (mulf p (mulf p p)))))))) j
      = act (p j) := rfl

variable (x0 x1 : FVec Ideal S1024x1024 .bf16) (x2 acc : FVec Ideal S1x1024 .f32)

/-- THE MAIN STORE at column `r`: the running sum plus the block's column sum of activations. -/
theorem pay2_apply (u : Fin 1) (r : Fin 1024) :
    k0_pay2 (F := Ideal) x0 x1 x2 acc (ix2 u r)
      = acc (ix2 u r)
        + ∑ k : Fin 1024, act ((∑ d : Fin 1024, x0 (ix2 k d) * x1 (ix2 r d)) + x2 (ix2 (0 : Fin 1) r)) := by
  unfold k0_pay2
  simp only [shapeCast_self]
  refine (addf_apply _ _ _).trans ?_
  refine congrArg (acc (ix2 u r) + ·) ?_
  refine (shapeCast_a_1a_apply _ _ u r).trans ?_
  refine (row_axis_sum _ _ _ _ r).trans ?_
  refine Finset.sum_congr rfl fun k _ => ?_
  refine (act_apply _ _).trans (congrArg act ?_)
  refine (addf_apply _ _ _).trans ?_
  exact congrArg₂ (· + ·) (rows_product_apply x0 x1 k r) (broadcastTo_1b_ab_apply x2 _ k r)

/-- THE RESET STORE writes the float zero everywhere. -/
theorem pay1_apply (i : S1x1024.Idx) : k0_pay1 (F := Ideal) i = Ideal.ofBits .f32 0x00000000#32 := rfl

/-- THE CLOSING STORE multiplies the row by the float 2^-13. -/
theorem pay3_apply (v : FVec Ideal S1x1024 .f32) (i : S1x1024.Idx) :
    k0_pay3 (F := Ideal) v i = v i * Ideal.ofBits .f32 0x39000000#32 := by
  unfold k0_pay3
  simp only [shapeCast_self]
  rfl

end Cert.KernelIdeal.Payload

end
-- ==== Proof.Blocks.lean ====
/-
  The input blocks of a grid point, read off the argument arrays. The grid has 4 × 8 points; point `t` works on
  neuron block `t / 8` and on row block `t % 8`. Its data block is rows `1024 · (t % 8) …` of `x`, its weight block
  rows `1024 · (t / 8) …` of `w`, its bias block entries `1024 · (t / 8) …` of `b`. Before the grid runs the program
  only changes the float format of `x` and `w` (the identity on extended reals) and views `b` as a row.
-/
import proofs.«161075_j4758823764049_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- Which block of its array each input window takes at point `t`: the data window the row block `t % 8`, the weight
    and bias windows the neuron block `t / 8` — decided over the 32 points. -/
theorem block_indices : ∀ t : Fin cfg0.N,
    win0_0.index t (0 : Fin 2) = t.val % 8 ∧ win0_0.index t (1 : Fin 2) = 0
    ∧ win0_1.index t (0 : Fin 2) = t.val / 8 ∧ win0_1.index t (1 : Fin 2) = 0
    ∧ win0_2.index t (0 : Fin 2) = 0 ∧ win0_2.index t (1 : Fin 2) = t.val / 8 :=
  (by decide +kernel : ∀ t : Fin grid0.N, _)

/-- The data array as the grid finds it is `x`: the change of float format is the identity. -/
theorem data_array (c : Dev nD) :
    (V m c main_v1 : S8192x1024.Idx → EReal) = m ((c : Thread nD τ).loc main_arg0) := by
  dsimp only [V, hostOps0]; after_results; rfl

/-- The weight array as the grid finds it is `w`. -/
theorem weight_array (c : Dev nD) :
    (V m c main_v2 : S4096x1024.Idx → EReal) = m ((c : Thread nD τ).loc main_arg1) := by
  dsimp only [V, hostOps0]; after_results; rfl

/-- The bias array as the grid finds it is `b` viewed as one row. -/
theorem bias_array (c : Dev nD) :
    (V m c main_v0 : S1x4096.Idx → EReal)
      = shapeCast S1x4096 (m ((c : Thread nD τ).loc main_arg2)) shapeCasts_S4096_S1x4096 := by
  dsimp only [V, hostOps0]; after_results; rfl

/-- The data block of point `t` at `(k, d)` is `x` at row `1024 · (t % 8) + k`, column `d`. -/
theorem data_block_apply (c : Dev nD) (t : Fin cfg0.N) (k d : Fin 1024) :
    iblk m c 0 t (ix2 k d)
      = m ((c : Thread nD τ).loc main_arg0)
          (ix2 (⟨1024 * (t.val % 8) + k.val, by have := k.isLt; omega⟩ : Fin 8192) d) := by
  obtain ⟨e0, e1, -⟩ := block_indices t
  show V m c main_v1 (((cfg0.win 0).blk t).view.emb (ix2 k d)) = _
  rw [data_array]
  refine congrArg _ (funext fun a => Fin.ext ?_)
  match a with
  | ⟨0, _⟩ => show win0_0.index t (0 : Fin 2) * 1024 + 1 * k.val = 1024 * (t.val % 8) + k.val; omega
  | ⟨1, _⟩ => show win0_0.index t (1 : Fin 2) * 1024 + 1 * d.val = d.val; omega

/-- The weight block of point `t` at `(r, d)` is `w` at row `1024 · (t / 8) + r`, column `d`. -/
theorem weight_block_apply (c : Dev nD) (t : Fin cfg0.N) (r d : Fin 1024) :
    iblk m c 1 t (ix2 r d)
      = m ((c : Thread nD τ).loc main_arg1)
          (ix2 (⟨1024 * (t.val / 8) + r.val, by
            have := r.isLt; have := lt_of_lt_of_eq t.isLt (show cfg0.N = 32 from N_0); omega⟩ : Fin 4096) d) := by
  obtain ⟨-, -, e2, e3, -⟩ := block_indices t
  show V m c main_v2 (((cfg0.win 1).blk t).view.emb (ix2 r d)) = _
  rw [weight_array]
  refine congrArg _ (funext fun a => Fin.ext ?_)
  match a with
  | ⟨0, _⟩ => show win0_1.index t (0 : Fin 2) * 1024 + 1 * r.val = 1024 * (t.val / 8) + r.val; omega
  | ⟨1, _⟩ => show win0_1.index t (1 : Fin 2) * 1024 + 1 * d.val = d.val; omega

/-- The bias block of point `t` at `(0, r)` is `b` at entry `1024 · (t / 8) + r`. -/
theorem bias_block_apply (c : Dev nD) (t : Fin cfg0.N) (u : Fin 1) (r : Fin 1024) :
    iblk m c 2 t (ix2 u r)
      = m ((c : Thread nD τ).loc main_arg2)
          (ix1 (⟨1024 * (t.val / 8) + r.val, by
            have := r.isLt; have := lt_of_lt_of_eq t.isLt (show cfg0.N = 32 from N_0); omega⟩ : Fin 4096)) := by
  obtain ⟨-, -, -, -, e4, e5⟩ := block_indices t
  show V m c main_v0 (((cfg0.win 2).blk t).view.emb (ix2 u r)) = _
  rw [bias_array]
  have hu : u.val = 0 := by omega
  have hi : ((cfg0.win 2).blk t).view.emb (ix2 u r)
      = ix2 (0 : Fin 1) (⟨1024 * (t.val / 8) + r.val, by
            have := r.isLt; have := lt_of_lt_of_eq t.isLt (show cfg0.N = 32 from N_0); omega⟩ : Fin 4096) := by
    funext a; apply Fin.ext
    match a with
    | ⟨0, _⟩ => show win0_2.index t (0 : Fin 2) * 1 + 1 * u.val = 0; omega
    | ⟨1, _⟩ => show win0_2.index t (1 : Fin 2) * 1024 + 1 * r.val = 1024 * (t.val / 8) + r.val; omega
  rw [hi]
  exact shapeCast_a_1a_apply _ _ _ _

end Cert.KernelIdeal.Blocks

end
-- ==== Proof.Fold.lean ====
/-
  The kernel's result array is `mean`. The generated value leg states the array, at column `j`, as the fold over the
  eight grid points of run `q = j / 1024`: the first point resets the running row to zero and adds its block's column
  sums, each later point adds its own, and the last also multiplies the row by 2^-13. Read at an index, point
  `8 · q + s` adds the sum over the 1024 rows `k` of row block `s` of the activation at row `1024 · s + k` and column
  `j` (`point_sum`, `main_store_apply`). So the fold is zero plus the sum over `s < 8` of those block sums, times 2^-13
  (`run_fold`), and the eight block sums are the sum over all 8192 rows (`Cert.MeanAct.sum_rows_blocks`).
-/
import proofs.«161075_j4758823764049_2_alg».proof.Proof.Gen.KernelIdeal.Value
import proofs.«161075_j4758823764049_2_alg».proof.Proof.Payload
import proofs.«161075_j4758823764049_2_alg».proof.Proof.Blocks
import proofs.«161075_j4758823764049_2_alg».proof.Proof.Spec

noncomputable section

namespace Cert.KernelIdeal.Fold

open Cert.KernelIdeal Cert.KernelIdeal.Gen Cert.KernelIdeal.Value Cert.KernelIdeal.Payload Cert.KernelIdeal.Blocks
open Cert.MeanAct
open Idealize.ShloMosaic Idealize.ShloMosaic.TcCoe Idealize.SL.Sem Idealize.ShloMosaic.ValueIdx
open scoped BigOperators

variable (m : (ℓ : Loc nD τ sig) → Buf (Elt Ideal) ℓ)

/-- The number of grid points, as a number. -/
theorem points : cfg0.N = 32 := N_0

/-- What point `t` adds at staging column `r`: the sum over the 1024 rows of its row block of the activations at its
    neuron block's column `r`. -/
def pointSum (c : Dev nD) (t : Fin cfg0.N) (r : Fin 1024) : EReal :=
  ∑ k : Fin 1024, act (lin (m ((c : Thread nD τ).loc main_arg0)) (m ((c : Thread nD τ).loc main_arg1))
    (m ((c : Thread nD τ).loc main_arg2))
    (⟨1024 * (t.val % 8) + k.val, by have := k.isLt; omega⟩ : Fin 8192)
    (⟨1024 * (t.val / 8) + r.val, by have := r.isLt; have := lt_of_lt_of_eq t.isLt (points); omega⟩ : Fin 4096))

/-- The same for every natural number (zero past the grid), as a function of the staging index. -/
def addend (c : Dev nD) (n : ℕ) (i : S1x1024.Idx) : EReal :=
  if h : n < cfg0.N then pointSum m c ⟨n, h⟩ ⟨(i 1).val, (i 1).isLt⟩ else 0

/-- THE MAIN STORE of point `t` at column `r`: what the running row held there plus the point's block sum. -/
theorem main_store_apply (c : Dev nD) (t : Fin cfg0.N) (acc : FVec Ideal S1x1024 .f32) (u : Fin 1) (r : Fin 1024) :
    k0_pay2 (F := Ideal) (iblk m c 0 t) (iblk m c 1 t) (iblk m c 2 t) acc (ix2 u r)
      = acc (ix2 u r) + pointSum m c t r := by
  refine (pay2_apply (iblk m c 0 t) (iblk m c 1 t) (iblk m c 2 t) acc u r).trans ?_
  refine congrArg (acc (ix2 u r) + ·) (Finset.sum_congr rfl fun k _ => congrArg act ?_)
  unfold lin
  refine congrArg₂ (· + ·) (Finset.sum_congr rfl fun d _ => ?_) (bias_block_apply m c t 0 r)
  rw [data_block_apply, weight_block_apply]

/-- At a point that is neither first nor last of its run the step is the main store over the running row. -/
theorem step_middle (c : Dev nD) (n : ℕ) (h : n < cfg0.N) (acc : Vec Ideal S1x1024 .f32) (h0 : ¬n % 8 = 0)
    (h7 : ¬n % 8 = 7) :
    step3 m c n h acc = k0_pay2 (iblk m c 0 ⟨n, h⟩) (iblk m c 1 ⟨n, h⟩) (iblk m c 2 ⟨n, h⟩) acc := by
  unfold step3
  rw [if_pos ⟨h0, h7⟩]

/-- At the last point of a run the step is the main store followed by the closing store. -/
theorem step_last (c : Dev nD) (n : ℕ) (h : n < cfg0.N) (acc : Vec Ideal S1x1024 .f32) (h7 : n % 8 = 7) :
    step3 m c n h acc
      = k0_pay3 (k0_pay2 (iblk m c 0 ⟨n, h⟩) (iblk m c 1 ⟨n, h⟩) (iblk m c 2 ⟨n, h⟩) acc) := by
  unfold step3
  rw [if_neg (by omega), if_pos (by omega)]

/-- The first seven points of run `q`: the running row holds zero plus their block sums. -/
theorem fold_seven (c : Dev nD) (q : ℕ) (h : 8 * q + 6 < cfg0.N) (i : S1x1024.Idx) :
    Pipeline.accAt (reset3 m c) (step3 m c) (8 * q) 6 h i
      = Ideal.ofBits .f32 0x00000000#32 + ∑ s ∈ Finset.range 7, addend m c (8 * q + s) i := by
  refine Pipeline.accAt_add_apply (reset3 m c) (step3 m c) (fun _ => Ideal.ofBits .f32 0x00000000#32) (addend m c)
    (8 * q) 6 ?_ ?_ 6 (le_refl 6) h i
  · intro hb i
    obtain ⟨u, r, rfl⟩ : ∃ (u : Fin 1) (r : Fin 1024), i = ix2 u r := ⟨i 0, i 1, eq_ix2 i⟩
    unfold reset3
    refine (main_store_apply m c ⟨8 * q, hb⟩ (k0_pay1 (F := Ideal)) u r).trans ?_
    unfold addend
    rw [dif_pos hb]
    rfl
  · intro n hn acc i h1 h2
    obtain ⟨u, r, rfl⟩ : ∃ (u : Fin 1) (r : Fin 1024), i = ix2 u r := ⟨i 0, i 1, eq_ix2 i⟩
    refine (congrFun (step_middle m c n hn acc (by omega) (by omega)) (ix2 u r)).trans ?_
    refine (main_store_apply m c ⟨n, hn⟩ acc u r).trans ?_
    unfold addend
    rw [dif_pos hn]

/-- The whole run `q`: zero plus the eight block sums, times the float 2^-13. -/
theorem run_fold (c : Dev nD) (q : ℕ) (h : 8 * q + 7 < cfg0.N) (u : Fin 1) (r : Fin 1024) :
    Pipeline.accAt (reset3 m c) (step3 m c) (8 * q) 7 h (ix2 u r)
      = (0 + ∑ s ∈ Finset.range 8, addend m c (8 * q + s) (ix2 u r)) * Ideal.ofBits .f32 0x39000000#32 := by
  refine (congrFun (Pipeline.accAt_succ (reset3 m c) (step3 m c) (8 * q) 6 h) (ix2 u r)).trans ?_
  refine (congrFun (step_last m c _ h _ (by omega)) (ix2 u r)).trans ?_
  refine (pay3_apply _ _).trans (congrArg (· * _) ?_)
  refine (main_store_apply m c ⟨8 * q + (6 + 1), h⟩ _ u r).trans ?_
  rw [fold_seven, zero_word, Finset.sum_range_succ _ 7, add_assoc]
  refine congrArg (fun z : EReal => 0 + ((∑ s ∈ Finset.range 7, addend m c (8 * q + s) (ix2 u r)) + z)) ?_
  show pointSum m c ⟨8 * q + 7, h⟩ r = addend m c (8 * q + 7) (ix2 u r)
  unfold addend
  rw [dif_pos h]

/-- Two folds over the same run are the same fold, whatever the spelling of the run's first point. -/
theorem fold_congr (c : Dev nD) (b b' : ℕ) (e : b = b') (h : b + 7 < cfg0.N) (h' : b' + 7 < cfg0.N) :
    Pipeline.accAt (reset3 m c) (step3 m c) b 7 h = Pipeline.accAt (reset3 m c) (step3 m c) b' 7 h' := by
  subst e; rfl

/-- THE RESULT ARRAY of the kernel is `mean` of the argument arrays. -/
theorem result_eq (c : Dev nD) :
    (G3 m c : S1x4096.Idx → EReal)
      = mean (m ((c : Thread nD τ).loc main_arg0)) (m ((c : Thread nD τ).loc main_arg1))
          (m ((c : Thread nD τ).loc main_arg2)) := by
  funext i
  obtain ⟨u, j, rfl⟩ : ∃ (u : Fin 1) (j : Fin 4096), i = ix2 u j := ⟨i 0, i 1, eq_ix2 i⟩
  have hj := j.isLt
  have hu : u.val = 0 := by omega
  have hN := points
  have hq : run3Of (ix2 u j) = j.val / 1024 := by
    show 4 * (u.val / 1 - 0) + 1 * (j.val / 1024 - 0) = j.val / 1024
    omega
  have hrun : 8 * (j.val / 1024) + 7 < cfg0.N := by rw [hN]; omega
  have hloc : loc3Of (ix2 u j) = ix2 (0 : Fin 1) (⟨j.val % 1024, Nat.mod_lt _ (by decide)⟩ : Fin 1024) := by
    funext a; apply Fin.ext
    match a with
    | ⟨0, _⟩ => show u.val % 1 = 0; omega
    | ⟨1, _⟩ => rfl
  unfold G3
  rw [dif_pos (by rw [hq]; exact hrun), hloc,
    fold_congr m c _ _ (congrArg (8 * ·) hq) _ hrun, run_fold]
  unfold mean colSum
  refine congrArg (fun z => (0 + z) * _) ?_
  rw [sum_rows_blocks, Finset.sum_range (fun s => addend m c (8 * (j.val / 1024) + s) _)]
  refine Finset.sum_congr rfl fun s _ => ?_
  have hs := s.isLt
  unfold addend
  rw [dif_pos (by rw [hN]; omega)]
  unfold pointSum
  refine Finset.sum_congr rfl fun k _ => ?_
  have hk := k.isLt
  refine congrArg act (congrArg₂ (lin _ _ _) (Fin.ext ?_) (Fin.ext ?_))
  · show 1024 * ((8 * (j.val / 1024) + s.val) % 8) + k.val = 1024 * s.val + k.val
    omega
  · show 1024 * ((8 * (j.val / 1024) + s.val) / 8) + j.val % 1024 = j.val
    omega

end Cert.KernelIdeal.Fold

end
-- ==== Proof.lean ====
/-
  A dense layer with a tanh-form GELU, averaged over the rows: for data `x` (8192 × 1024), weights `w` (4096 × 1024)
  and biases `b` (4096), the result at neuron `n` is the mean over the 8192 rows `t` of
  `act (∑ d, x[t,d] · w[n,d] + b[n])`.

  The kernel walks a 4 × 8 grid: for each block of 1024 neurons it visits the eight blocks of 1024 rows in turn,
  keeps a running row of column sums that it zeroes at the first row block, adds each block's column sums of
  activations to, and multiplies by 2^-13 at the last. The reference forms the whole 8192 × 4096 activation matrix,
  sums it over the rows and divides by 8192. On the extended reals these are one function (`Cert.MeanAct.mean`):
  the eight block sums add up to the sum over all rows because addition is commutative and associative, infinities
  included; the quotient by 8192 is the product with 2^-13 because both float patterns are exact; the two spellings
  of the cube inside the activation differ by commutativity of the product. The casts of `x` and `w` to a shorter
  float format are the identity on extended reals. No step needs the inputs to be finite.

  The kernel's result array as a fold over each run of eight grid points comes from the generated value leg, and the
  reference's result as a composition of its operations from its generated run; `Cert.KernelIdeal.Fold.result_eq` and
  `Cert.ReferenceIdeal.RefValue.result_eq` read the two at an index as `mean`.
-/
import proofs.«161075_j4758823764049_2_alg».proof.Defs
import proofs.«161075_j4758823764049_2_alg».proof.Proof.Gen.Kernel.Frame
import proofs.«161075_j4758823764049_2_alg».proof.Proof.Gen.KernelIdeal.Value
import proofs.«161075_j4758823764049_2_alg».proof.Proof.Gen.Pre_finite_inputs
import proofs.«161075_j4758823764049_2_alg».proof.Proof.Gen.ReferenceIdeal.Run
import proofs.«161075_j4758823764049_2_alg».proof.Proof.Gen.ReferenceIdeal.Read
import proofs.«161075_j4758823764049_2_alg».proof.Proof.RefValue
import proofs.«161075_j4758823764049_2_alg».proof.Proof.Fold
import Idealize.ShloMosaic.Adequacy
import Idealize.ShloMosaic.Init

noncomputable section

namespace Cert.Proof

open Idealize.ShloMosaic Idealize.SL.Sem

/-- The idealized kernel terminates without a fault and leaves its arguments as they were: its value run, the
    result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference likewise: its run, the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on `x`, `w` and `b` both programs end with the row of means `Cert.MeanAct.mean x w b`. -/
theorem algebraic_KernelIdeal_ReferenceIdeal : algebraic_KernelIdeal_ReferenceIdeal := by
  intro m ρ m' ρ' _ hagree
  refine ⟨fun c => Cert.KernelIdeal.Value.G3 m c, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v20_eq, Cert.ReferenceIdeal.RefValue.result_eq,
    (hagree c).1, (hagree c).2.1, (hagree c).2.2]
  exact (Cert.KernelIdeal.Fold.result_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
